-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S100000x96 .f32) (main_arg1 : IVec S2x800000 32) (main_arg2 : FVec F S96x96 .f32) (main_arg3 : FVec F S96 .f32) (main_arg4 : FVec F S96x96 .f32) (main_arg5 : FVec F S96 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_v13 main_v16
-- ==== Kernel.lean ====
abbrev S100000x96 : Shape := ⟨2, ![100000, 96]⟩
abbrev S2x800000 : Shape := ⟨2, ![2, 800000]⟩
abbrev S96x96 : Shape := ⟨2, ![96, 96]⟩
abbrev S96 : Shape := ⟨1, ![96]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S10000x96 : Shape := ⟨2, ![10000, 96]⟩
abbrev S900000x96 : Shape := ⟨2, ![900000, 96]⟩
abbrev S9000x96 : Shape := ⟨2, ![9000, 96]⟩
abbrev S9000x1 : Shape := ⟨2, ![9000, 1]⟩
abbrev S1x96 : Shape := ⟨2, ![1, 96]⟩

abbrev nBuf : Space → Nat
  | .hbm => 75
  | .vmem => 32
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S900000, .i32⟩
  | .hbm, ⟨22, _⟩ => ⟨S900000, .i1⟩
  | .hbm, ⟨23, _⟩ => ⟨S_, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S900000x1, .i32⟩
  | .hbm, ⟨28, _⟩ => ⟨S900000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S900000, .f32⟩
  | .hbm, ⟨39, _⟩ => ⟨S100000x96, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x96, .f32⟩
  | .hbm, ⟨49, _⟩ => ⟨S900000x1, .f32⟩
  | .hbm, ⟨50, _⟩ => ⟨S900000x96, .f32⟩
  | .hbm, ⟨51, _⟩ => ⟨S_, .f32⟩
  | .hbm, ⟨52, _⟩ => ⟨S100000x96, .f32⟩
  | .hbm, ⟨53, _⟩ => ⟨S900000x1, .i32⟩
  | .hbm, ⟨54, _⟩ => ⟨S100000x96, .f32⟩
  | .hbm, ⟨55, _⟩ => ⟨S1x96, .f32⟩
  | .hbm, ⟨56, _⟩ => ⟨S100000x96, .f32⟩
  | .hbm, ⟨57, _⟩ => ⟨S100000x96, .f32⟩
  | .hbm, ⟨58, _⟩ => ⟨S_, .i32⟩
  | .hbm, ⟨59, _⟩ => ⟨S900000, .i32⟩
  | .hbm, ⟨60, _⟩ => ⟨S900000, .i1⟩
  | .hbm, ⟨61, _⟩ => ⟨S_, .i32⟩
  | .hbm, ⟨62, _⟩ => ⟨S900000, .i32⟩
  | .hbm, ⟨63, _⟩ => ⟨S900000, .i32⟩
  | .hbm, ⟨64, _⟩ => ⟨S900000, .i32⟩
  | .hbm, ⟨65, _⟩ => ⟨S900000x1, .i32⟩
  | .hbm, ⟨66, _⟩ => ⟨S900000x96, .f32⟩
  | .hbm, ⟨67, _⟩ => ⟨S900000x1, .f32⟩
  | .hbm, ⟨68, _⟩ => ⟨S900000x96, .f32⟩
  | .hbm, ⟨69, _⟩ => ⟨S_, .f32⟩
  | .hbm, ⟨70, _⟩ => ⟨S100000x96, .f32⟩
  | .hbm, ⟨71, _⟩ => ⟨S900000x1, .i32⟩
  | .hbm, ⟨72, _⟩ => ⟨S100000x96, .f32⟩
  | .hbm, ⟨73, _⟩ => ⟨S1x96, .f32⟩
  | .hbm, ⟨74, _⟩ => ⟨S100000x96, .f32⟩
  | .local _ .vmem, ⟨0, _⟩ => ⟨S10000x96, .f32⟩
  | .local _ .vmem, ⟨1, _⟩ => ⟨S10000x96, .f32⟩
  | .local _ .vmem, ⟨2, _⟩ => ⟨S96x96, .f32⟩
  | .local _ .vmem, ⟨3, _⟩ => ⟨S10000x96, .f32⟩
  | .local _ .vmem, ⟨4, _⟩ => ⟨S10000x96, .f32⟩
  | .local _ .vmem, ⟨5, _⟩ => ⟨S9000x96, .f32⟩
  | .local _ .vmem, ⟨6, _⟩ => ⟨S9000x96, .f32⟩
  | .local _ .vmem, ⟨7, _⟩ => ⟨S9000x1, .f32⟩
  | .local _ .vmem, ⟨8, _⟩ => ⟨S9000x1, .f32⟩
  | .local _ .vmem, ⟨9, _⟩ => ⟨S9000x96, .f32⟩
  | .local _ .vmem, ⟨10, _⟩ => ⟨S9000x96, .f32⟩
  | .local _ .vmem, ⟨11, _⟩ => ⟨S10000x96, .f32⟩
  | .local _ .vmem, ⟨12, _⟩ => ⟨S10000x96, .f32⟩
  | .local _ .vmem, ⟨13, _⟩ => ⟨S1x96, .f32⟩
  | .local _ .vmem, ⟨14, _⟩ => ⟨S10000x96, .f32⟩
  | .local _ .vmem, ⟨15, _⟩ => ⟨S10000x96, .f32⟩
  | .local _ .vmem, ⟨16, _⟩ => ⟨S10000x96, .f32⟩
  | .local _ .vmem, ⟨17, _⟩ => ⟨S10000x96, .f32⟩
  | .local _ .vmem, ⟨18, _⟩ => ⟨S96x96, .f32⟩
  | .local _ .vmem, ⟨19, _⟩ => ⟨S10000x96, .f32⟩
  | .local _ .vmem, ⟨20, _⟩ => ⟨S10000x96, .f32⟩
  | .local _ .vmem, ⟨21, _⟩ => ⟨S9000x96, .f32⟩
  | .local _ .vmem, ⟨22, _⟩ => ⟨S9000x96, .f32⟩
  | .local _ .vmem, ⟨23, _⟩ => ⟨S9000x1, .f32⟩
  | .local _ .vmem, ⟨24, _⟩ => ⟨S9000x1, .f32⟩
  | .local _ .vmem, ⟨25, _⟩ => ⟨S9000x96, .f32⟩
  | .local _ .vmem, ⟨26, _⟩ => ⟨S9000x96, .f32⟩
  | .local _ .vmem, ⟨27, _⟩ => ⟨S10000x96, .f32⟩
  | .local _ .vmem, ⟨28, _⟩ => ⟨S10000x96, .f32⟩
  | .local _ .vmem, ⟨29, _⟩ => ⟨S1x96, .f32⟩
  | .local _ .vmem, ⟨30, _⟩ => ⟨S10000x96, .f32⟩
  | .local _ .vmem, ⟨31, _⟩ => ⟨S10000x96, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S9000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S9000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S9000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S9000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S9000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x96_S10000x96_0_0 : ∀ a, (![0, 0] : Fin 2 → Nat) a + S10000x96.size a ≤ S10000x96.size a
  h_S10000x96 : 0 < S10000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S900000_S900000x1 : S900000.ShapeCasts S900000x1
  inb_S9000x96_S9000x96_0_0 : ∀ a, (![0, 0] : Fin 2 → Nat) a + S9000x96.size a ≤ S9000x96.size a
  h_S9000x96 : 0 < S9000x96.numel
  shapeCasts_S9000x96_S9000x96 : S9000x96.ShapeCasts S9000x96
  inb_S9000x1_S9000x1_0_0 : ∀ a, (![0, 0] : Fin 2 → Nat) a + S9000x1.size a ≤ S9000x1.size a
  h_S9000x1 : 0 < S9000x1.numel
  shapeCasts_S9000x1_S9000x1 : S9000x1.ShapeCasts S9000x1
  broadcasts_S9000x1_S9000x96 : S9000x1.Broadcasts S9000x96
  bcast_S_S100000x96 : S_.BroadcastsInDim S100000x96 (![] : Fin 0 → Fin S100000x96.rank)
  shapeCasts_S96_S1x96 : S96.ShapeCasts S1x96
  shapeCasts_S10000x96_S10000x96 : S10000x96.ShapeCasts S10000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S10000x96 : S1x96.Broadcasts S10000x96
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x96_S96x96_S10000x96_1_0_0_1_n_n_wf : DotDims.WF S10000x96 S96x96 S10000x96 [1] [0] [0] [1] [] []
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x96.size a ≤ S100000x96.size a
  hwx0_0 : ∀ i : grid0.Coords, EltTy.bits .f32 = 32 ∨ (Rect.block (s := S100000x96) S10000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x96.size a ≤ S100000x96.size a
  hwx0_2 : ∀ i : grid0.Coords, EltTy.bits .f32 = 32 ∨ (Rect.block (s := S100000x96) S10000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9000x96.size a ≤ S900000x96.size a
  hwx1_0 : ∀ i : grid1.Coords, EltTy.bits .f32 = 32 ∨ (Rect.block (s := S900000x96) S9000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S9000x1.size a ≤ S900000x1.size a
  hwx1_1 : ∀ i : grid1.Coords, EltTy.bits .f32 = 32 ∨ (Rect.block (s := S900000x1) S9000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S9000x96.size a ≤ S900000x96.size a
  hwx1_2 : ∀ i : grid1.Coords, EltTy.bits .f32 = 32 ∨ (Rect.block (s := S900000x96) S9000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x96.size a ≤ S100000x96.size a
  hwx2_0 : ∀ i : grid2.Coords, EltTy.bits .f32 = 32 ∨ (Rect.block (s := S100000x96) S10000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x96.size a ≤ S100000x96.size a
  hwx2_2 : ∀ i : grid2.Coords, EltTy.bits .f32 = 32 ∨ (Rect.block (s := S100000x96) S10000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x96.size a ≤ S100000x96.size a
  hwx3_0 : ∀ i : grid3.Coords, EltTy.bits .f32 = 32 ∨ (Rect.block (s := S100000x96) S10000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x96.size a ≤ S100000x96.size a
  hwx3_2 : ∀ i : grid3.Coords, EltTy.bits .f32 = 32 ∨ (Rect.block (s := S100000x96) S10000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S9000x96.size a ≤ S900000x96.size a
  hwx4_0 : ∀ i : grid4.Coords, EltTy.bits .f32 = 32 ∨ (Rect.block (s := S900000x96) S9000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S9000x1.size a ≤ S900000x1.size a
  hwx4_1 : ∀ i : grid4.Coords, EltTy.bits .f32 = 32 ∨ (Rect.block (s := S900000x1) S9000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S9000x96.size a ≤ S900000x96.size a
  hwx4_2 : ∀ i : grid4.Coords, EltTy.bits .f32 = 32 ∨ (Rect.block (s := S900000x96) S9000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x96.size a ≤ S100000x96.size a
  hwx5_0 : ∀ i : grid5.Coords, EltTy.bits .f32 = 32 ∨ (Rect.block (s := S100000x96) S10000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x96.size a ≤ S1x96.size a
  hwx5_1 : ∀ i : grid5.Coords, EltTy.bits .f32 = 32 ∨ (Rect.block (s := S1x96) S1x96.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x96.size a ≤ S100000x96.size a
  hwx5_2 : ∀ i : grid5.Coords, EltTy.bits .f32 = 32 ∨ (Rect.block (s := S100000x96) S10000x96.size (cc5_transform_2 i) (hinb5_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf

abbrev win0_0 : Pipeline.Window sig grid0 :=
  Pipeline.Window.ofSpec (Memref.whole main_arg0) S10000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S9000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S9000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S9000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S10000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S10000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S10000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S10000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S9000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S9000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S9000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S10000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S1x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S10000x96.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x96 : Shape := ⟨2, ![100000, 96]⟩
abbrev S2x800000 : Shape := ⟨2, ![2, 800000]⟩
abbrev S96x96 : Shape := ⟨2, ![96, 96]⟩
abbrev S96 : Shape := ⟨1, ![96]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x96 : Shape := ⟨2, ![900000, 96]⟩
abbrev S1x96 : Shape := ⟨2, ![1, 96]⟩

abbrev nBuf : Space → Nat
  | .hbm => 85
  | .vmem => 0
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S900000, .i32⟩
  | .hbm, ⟨22, _⟩ => ⟨S900000, .i1⟩
  | .hbm, ⟨23, _⟩ => ⟨S_, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S900000x1, .i32⟩
  | .hbm, ⟨28, _⟩ => ⟨S900000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S900000, .f32⟩
  | .hbm, ⟨39, _⟩ => ⟨S100000x96, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x96, .f32⟩
  | .hbm, ⟨49, _⟩ => ⟨S900000x1, .f32⟩
  | .hbm, ⟨50, _⟩ => ⟨S900000x96, .f32⟩
  | .hbm, ⟨51, _⟩ => ⟨S900000x96, .f32⟩
  | .hbm, ⟨52, _⟩ => ⟨S_, .f32⟩
  | .hbm, ⟨53, _⟩ => ⟨S100000x96, .f32⟩
  | .hbm, ⟨54, _⟩ => ⟨S900000x1, .i32⟩
  | .hbm, ⟨55, _⟩ => ⟨S100000x96, .f32⟩
  | .hbm, ⟨56, _⟩ => ⟨S1x96, .f32⟩
  | .hbm, ⟨57, _⟩ => ⟨S100000x96, .f32⟩
  | .hbm, ⟨58, _⟩ => ⟨S100000x96, .f32⟩
  | .hbm, ⟨59, _⟩ => ⟨S_, .f32⟩
  | .hbm, ⟨60, _⟩ => ⟨S100000x96, .f32⟩
  | .hbm, ⟨61, _⟩ => ⟨S100000x96, .f32⟩
  | .hbm, ⟨62, _⟩ => ⟨S100000x96, .f32⟩
  | .hbm, ⟨63, _⟩ => ⟨S_, .i32⟩
  | .hbm, ⟨64, _⟩ => ⟨S900000, .i32⟩
  | .hbm, ⟨65, _⟩ => ⟨S900000, .i1⟩
  | .hbm, ⟨66, _⟩ => ⟨S_, .i32⟩
  | .hbm, ⟨67, _⟩ => ⟨S900000, .i32⟩
  | .hbm, ⟨68, _⟩ => ⟨S900000, .i32⟩
  | .hbm, ⟨69, _⟩ => ⟨S900000, .i32⟩
  | .hbm, ⟨70, _⟩ => ⟨S900000x1, .i32⟩
  | .hbm, ⟨71, _⟩ => ⟨S900000x96, .f32⟩
  | .hbm, ⟨72, _⟩ => ⟨S900000x1, .f32⟩
  | .hbm, ⟨73, _⟩ => ⟨S900000x96, .f32⟩
  | .hbm, ⟨74, _⟩ => ⟨S900000x96, .f32⟩
  | .hbm, ⟨75, _⟩ => ⟨S_, .f32⟩
  | .hbm, ⟨76, _⟩ => ⟨S100000x96, .f32⟩
  | .hbm, ⟨77, _⟩ => ⟨S900000x1, .i32⟩
  | .hbm, ⟨78, _⟩ => ⟨S100000x96, .f32⟩
  | .hbm, ⟨79, _⟩ => ⟨S1x96, .f32⟩
  | .hbm, ⟨80, _⟩ => ⟨S100000x96, .f32⟩
  | .hbm, ⟨81, _⟩ => ⟨S100000x96, .f32⟩
  | .hbm, ⟨82, _⟩ => ⟨S_, .f32⟩
  | .hbm, ⟨83, _⟩ => ⟨S100000x96, .f32⟩
  | .hbm, ⟨84, _⟩ => ⟨S100000x96, .f32⟩
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x96_0_1 : S900000x1.BroadcastsInDim S900000x96 (![0, 1] : Fin 2 → Fin S900000x96.rank)
  bcast_S_S100000x96 : S_.BroadcastsInDim S100000x96 (![] : Fin 0 → Fin S100000x96.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x96_S96x96_S100000x96_1_0_0_1_n_n_wf : DotDims.WF S100000x96 S96x96 S100000x96 [1] [0] [0] [1] [] []
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x96_S96x96_S100000x96_1_0_0_1_n_n : DotDims S100000x96 S96x96 S100000x96 where
  lhsContracting := [1]
  rhsContracting := [0]
  lhsNonContracting := [0]
  rhsNonContracting := [1]
  lhsBatch := []
  rhsBatch := []
  wf := dot_S100000x96_S96x96_S100000x96_1_0_0_1_n_n_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf

class Facts : Prop extends Facts₀ where

variable [Facts]
-- ==== Proof.KRun.lean ====
/-
  The idealized kernel's run with its result named.

  The program is six pipelined regions among stretches of host operations. Its run ends with every buffer of the
  TensorCore at the last boundary's contents: the launch memory folded through the host stretches and, at each region,
  the region's arrays replaced by what its write-backs leave. The frame statement keeps of this only that the argument
  arrays end as launched; here the same run is stated with the result array kept as well, at that fold's value.
-/
import proofs.«166920_j52312701665402_1_alg».proof.Proof.FrameP_KernelIdeal

set_option maxRecDepth 16384

noncomputable section

namespace Cert.KernelIdeal.RunNamed

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_named : θ_run defs (onTc (τ := τ) (main (F := F))) ⟨m, fun _ => 0, ρ⟩ (fun r => ∀ c : Dev nD,
      r.2.mem ((c.tc : Thread nD τ).loc main_v56) = W11 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v56 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunNamed

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.BlockValue.lean ====
/-
  The three array functions the six regions of the graph-convolution program compute, and what each region's body
  computes on one block, read at an index, over the extended reals.

  * `mm X W`: the matrix product, entry (r, q) the sum over the shared axis of X (r, c) · W (c, q). The body rounds
    both operands to a narrower format first; over the extended reals a change of format is the identity.
  * `scale G w`: row r of G multiplied by the r-th entry of the column w.
  * `biasRelu A b`: the row b added to every row of A, then the maximum with zero.
-/
import proofs.«166920_j52312701665402_1_alg».proof.Proof.Gen.KernelIdeal.Skeleton
import proofs.«166920_j52312701665402_1_alg».proof.Proof.LibPlainMatmul
import proofs.«166920_j52312701665402_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.GcnSpec

open Idealize.ShloMosaic Idealize.ShloMosaic.ValueIdx
open scoped BigOperators

/-- The matrix product: entry (r, q) is the sum over c of X (r, c) · W (c, q). -/
def mm {n k d : Nat} (X : (⟨2, ![n, k]⟩ : Shape).Idx → EReal) (W : (⟨2, ![k, d]⟩ : Shape).Idx → EReal) :
    (⟨2, ![n, d]⟩ : Shape).Idx → EReal :=
  fun i => ∑ c : Fin k, X (ix2 (i 0) c) * W (ix2 c (i 1))

/-- Each row of G multiplied by that row's entry of the column w. -/
def scale {n d : Nat} (G : (⟨2, ![n, d]⟩ : Shape).Idx → EReal) (w : (⟨2, ![n, 1]⟩ : Shape).Idx → EReal) :
    (⟨2, ![n, d]⟩ : Shape).Idx → EReal :=
  fun i => G i * w (ix2 (i 0) (0 : Fin 1))

/-- The row b added to every row of A, then the maximum with zero. -/
def biasRelu {n d : Nat} (A : (⟨2, ![n, d]⟩ : Shape).Idx → EReal) (b : (⟨2, ![1, d]⟩ : Shape).Idx → EReal) :
    (⟨2, ![n, d]⟩ : Shape).Idx → EReal :=
  fun i => max (A i + b (ix2 (0 : Fin 1) (i 1))) (Ideal.ofBits .f32 0x00000000#32)

theorem mm_apply {n k d : Nat} (X : (⟨2, ![n, k]⟩ : Shape).Idx → EReal) (W : (⟨2, ![k, d]⟩ : Shape).Idx → EReal)
    (r : Fin n) (q : Fin d) : mm X W (ix2 r q) = ∑ c : Fin k, X (ix2 r c) * W (ix2 c q) := rfl

theorem scale_apply {n d : Nat} (G : (⟨2, ![n, d]⟩ : Shape).Idx → EReal) (w : (⟨2, ![n, 1]⟩ : Shape).Idx → EReal)
    (r : Fin n) (q : Fin d) : scale G w (ix2 r q) = G (ix2 r q) * w (ix2 r (0 : Fin 1)) := rfl

theorem biasRelu_apply {n d : Nat} (A : (⟨2, ![n, d]⟩ : Shape).Idx → EReal) (b : (⟨2, ![1, d]⟩ : Shape).Idx → EReal)
    (r : Fin n) (q : Fin d) :
    biasRelu A b (ix2 r q) = max (A (ix2 r q) + b (ix2 (0 : Fin 1) q)) (Ideal.ofBits .f32 0x00000000#32) := rfl

end Cert.GcnSpec

namespace Cert.KernelIdeal.BlockValue

open Cert.KernelIdeal Cert.KernelIdeal.Gen Cert.GcnSpec Cert.LibPlainMatmul Cert.LibKeepdims
open Idealize.ShloMosaic Idealize.ShloMosaic.ValueIdx
open scoped BigOperators

/-- The first product's body on one block of rows: the block's rows times the whole weight matrix. -/
theorem pay0_apply (x0 : Vec Ideal S10000x96 .f32) (x1 : Vec Ideal S96x96 .f32) (p : Fin 10000) (q : Fin 96) :
    k0_pay1 (F := Ideal) x0 x1 (ix2 p q) = ∑ c : Fin 96, x0 (ix2 p c) * x1 (ix2 c q) := by
  unfold k0_pay1
  exact matmul_zero_plain _ (truncf .bf16 x0 bitsLt_bf16_f32) (truncf .bf16 x1 bitsLt_bf16_f32) p q

/-- The second product's body on one block of rows. -/
theorem pay3_apply (x0 : Vec Ideal S10000x96 .f32) (x1 : Vec Ideal S96x96 .f32) (p : Fin 10000) (q : Fin 96) :
    k3_pay1 (F := Ideal) x0 x1 (ix2 p q) = ∑ c : Fin 96, x0 (ix2 p c) * x1 (ix2 c q) := by
  unfold k3_pay1
  refine (matmul_zero_plain _ (truncf .bf16 (shapeCast S10000x96 x0 shapeCasts_S10000x96_S10000x96) bitsLt_bf16_f32)
    (truncf .bf16 x1 bitsLt_bf16_f32) p q).trans ?_
  rw [shapeCast_self]
  rfl

/-- The scaling body on one block of rows: each entry times its row's weight. -/
theorem pay1_apply (x0 : Vec Ideal S9000x96 .f32) (x1 : Vec Ideal S9000x1 .f32) (p : Fin 9000) (q : Fin 96) :
    k1_pay1 (F := Ideal) x0 x1 (ix2 p q) = x0 (ix2 p q) * x1 (ix2 p (0 : Fin 1)) := by
  unfold k1_pay1
  show (shapeCast S9000x96 x0 shapeCasts_S9000x96_S9000x96) (ix2 p q)
      * (broadcastTo S9000x96 (shapeCast S9000x1 x1 shapeCasts_S9000x1_S9000x1) broadcasts_S9000x1_S9000x96) (ix2 p q) = _
  rw [shapeCast_self, shapeCast_self, broadcastTo_a1_ab_apply]

theorem pay4_apply (x0 : Vec Ideal S9000x96 .f32) (x1 : Vec Ideal S9000x1 .f32) (p : Fin 9000) (q : Fin 96) :
    k4_pay1 (F := Ideal) x0 x1 (ix2 p q) = x0 (ix2 p q) * x1 (ix2 p (0 : Fin 1)) := by
  unfold k4_pay1
  show (shapeCast S9000x96 x0 shapeCasts_S9000x96_S9000x96) (ix2 p q)
      * (broadcastTo S9000x96 (shapeCast S9000x1 x1 shapeCasts_S9000x1_S9000x1) broadcasts_S9000x1_S9000x96) (ix2 p q) = _
  rw [shapeCast_self, shapeCast_self, broadcastTo_a1_ab_apply]

/-- The bias-and-threshold body on one block of rows. -/
theorem pay2_apply (x0 : Vec Ideal S10000x96 .f32) (x1 : Vec Ideal S1x96 .f32) (p : Fin 10000) (q : Fin 96) :
    k2_pay1 (F := Ideal) x0 x1 (ix2 p q)
      = max (x0 (ix2 p q) + x1 (ix2 (0 : Fin 1) q)) (Ideal.ofBits .f32 0x00000000#32) := by
  unfold k2_pay1
  show max ((shapeCast S10000x96 x0 shapeCasts_S10000x96_S10000x96) (ix2 p q)
      + (broadcastTo S10000x96 (shapeCast S1x96 x1 shapeCasts_S1x96_S1x96) broadcasts_S1x96_S10000x96) (ix2 p q)) _ = _
  rw [shapeCast_self, shapeCast_self, broadcastTo_1b_ab_apply]
  rfl

theorem pay5_apply (x0 : Vec Ideal S10000x96 .f32) (x1 : Vec Ideal S1x96 .f32) (p : Fin 10000) (q : Fin 96) :
    k5_pay1 (F := Ideal) x0 x1 (ix2 p q)
      = max (x0 (ix2 p q) + x1 (ix2 (0 : Fin 1) q)) (Ideal.ofBits .f32 0x00000000#32) := by
  unfold k5_pay1
  show max ((shapeCast S10000x96 x0 shapeCasts_S10000x96_S10000x96) (ix2 p q)
      + (broadcastTo S10000x96 (shapeCast S1x96 x1 shapeCasts_S1x96_S1x96) broadcasts_S1x96_S10000x96) (ix2 p q)) _ = _
  rw [shapeCast_self, shapeCast_self, broadcastTo_1b_ab_apply]
  rfl

end Cert.KernelIdeal.BlockValue

end
-- ==== Proof.Region0.lean ====
/-
  Region 0 of the program multiplies a 100000 × 96 array by a 96 × 96 weight matrix, a block of 10000 rows per grid
  point over 10 points, the whole weight matrix staged at every point. Here its output array after the region is read
  as ONE function of the two arrays the region finds on entry: `mm X W`, entry (r, q) the sum over c of X (r, c) · W (c, q).

  Point t stages rows 10000·t … 10000·t + 9999 of X and writes back the same rows of the output. Row r of the product
  depends on row r of X only, so what point t writes back is block t of `mm X W`; the blocks cover the 100000 rows,
  the point covering row r being r / 10000.
-/
import proofs.«166920_j52312701665402_1_alg».proof.Proof.FrameP_KernelIdeal
import proofs.«166920_j52312701665402_1_alg».proof.Proof.BlockValue
import Idealize.ShloMosaic.Lib.Pipeline.Value

set_option maxRecDepth 16384

noncomputable section

namespace Cert.KernelIdeal.Region0

open Cert.KernelIdeal Cert.KernelIdeal.Gen Cert.KernelIdeal.GenP Cert.GcnSpec Cert.KernelIdeal.BlockValue
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_offset : (![0, 0] : Fin 2 → Nat) = fun _ => 0 := funext fun a => by fin_cases a <;> rfl

/-- At point t the row windows are at block row t, block column 0; the weight window stays at its one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A sum of products of entries of X and W, read where a block's coordinates put them, is `mm X W` at the output's
    index, once the reads of X are in that index's row and the reads of W in its column. -/
theorem mm_at (X : S100000x96.Idx → EReal) (W : S96x96.Idx → EReal) (i2 : S100000x96.Idx)
    (a : Fin 96 → S100000x96.Idx) (b : Fin 96 → S96x96.Idx)
    (h0 : ∀ k, a k = ix2 (i2 0) k) (h1 : ∀ k, b k = ix2 k (i2 1)) :
    ∑ k : Fin 96, X (a k) * W (b k) = mm X W i2 := by
  unfold mm
  exact Finset.sum_congr rfl fun k _ => by rw [h0 k, h1 k] <;> rfl

/-- What point t writes back is block t of `mm X W` of the arrays the region finds. -/
theorem flushed_eq (c : Dev nD) (t : Fin cfg0.N) :
    (dat0 (F := Ideal) V c).flushed 2 t
      = ((cfg0.win 2).blk t).view.read (Elt Ideal)
          (mm (V c main_arg0 : S100000x96.Idx → EReal) (V c main_arg2 : S96x96.Idx → EReal)) := by
  show (cfg0.win 2).cut (grid0.coords t) ((dat0 V c).after 2 t) = _
  rw [after0_2]
  unfold out0_2
  rw [View.canon_unit_zero zero_offset]
  simp only [View.ld_unit_zero (S := S10000x96) zero_offset, View.ld_unit_zero (S := S96x96) zero_offset]
  obtain ⟨e0, e1, e2, e3, e4, e5⟩ := block_index t
  funext j
  obtain ⟨p, q, rfl⟩ : ∃ (p : Fin 10000) (q : Fin 96), j = ix2 p q := ⟨j 0, j 1, eq_ix2 j⟩
  show k0_pay1 (iblk0 V c 0 t) (iblk0 V c 1 t) (ix2 p q)
    = mm (V c main_arg0 : S100000x96.Idx → EReal) (V c main_arg2 : S96x96.Idx → EReal) (((cfg0.win 2).blk t).view.emb (ix2 p q))
  refine (pay0_apply (iblk0 V c 0 t) (iblk0 V c 1 t) p q).trans ?_
  have h0 : ∀ k : Fin 96, ((cfg0.win 0).blk t).view.emb (ix2 p k)
      = ix2 ((((cfg0.win 2).blk t).view.emb (ix2 p q)) 0) k := by
    intro k
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 96 + 1 * k.val = k.val; omega
  have h1 : ∀ k : Fin 96, ((cfg0.win 1).blk t).view.emb (ix2 k q)
      = ix2 k ((((cfg0.win 2).blk t).view.emb (ix2 p q)) 1) := by
    intro k
    funext a; apply Fin.ext
    match a with
    | ⟨0, _⟩ => show win0_1.index t (0 : Fin 2) * 96 + 1 * k.val = k.val; omega
    | ⟨1, _⟩ => show win0_1.index t (1 : Fin 2) * 96 + 1 * q.val = win0_2.index t (1 : Fin 2) * 96 + 1 * q.val; omega
  exact mm_at (V c main_arg0) (V c main_arg2) _ _ _ h0 h1

/-- An index of the output array is in point t's block iff each coordinate is in the block's range on its axis. -/
theorem mem_blk (t : Fin cfg0.N) (i : S100000x96.Idx) :
    i ∈ ((cfg0.win 2).blk t).view.set ↔ ∀ a : Fin 2, win0_2.index t a * S10000x96.size a ≤ (i a).val
      ∧ (i a).val < win0_2.index t a * S10000x96.size a + S10000x96.size a := by
  show i ∈ ((View.whole main_v27).slice (win0_2.rect t)).set ↔ _
  rw [View.set_slice_whole, Rect.mem_set_unit]
  exact Iff.rfl

/-- Every row of the output is in some point's block: row r in that of point r / 10000. -/
theorem cover (i : S100000x96.Idx) :
    ∃ t : Fin cfg0.N, (cfg0.win 2).flush t = true ∧ i ∈ ((cfg0.win 2).blk t).view.set := by
  have hi0 : (i 0).val < 100000 := (i 0).isLt
  have hi1 : (i 1).val < 96 := (i 1).isLt
  have hN : grid0.N = 10 := N_0
  have hlt : (i 0).val / 10000 < grid0.N := by rw [hN]; omega
  obtain ⟨e0, e1, e2, e3, e4, e5⟩ := block_index ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 96 ≤ (i 1).val
      ∧ (i 1).val < win0_2.index ⟨(i 0).val / 10000, hlt⟩ (1 : Fin 2) * 96 + 96
    rw [e5]
    omega

/-- The output array after the region is `mm X W` of the arrays the region finds on entry. -/
theorem value (c : Dev nD) :
    (dat0 (F := Ideal) V c).arrAt 2 cfg0.N
      = mm (V c main_arg0 : S100000x96.Idx → EReal) (V c main_arg2 : S96x96.Idx → EReal) :=
  (dat0 V c).arrAt_eq_of_cover 2 _ (fun t _ => flushed_eq V c t) cover

end Cert.KernelIdeal.Region0

end
-- ==== Proof.Region1.lean ====
/-
  Region 1 of the program scales each row of the gathered message array by that row's weight, a block of 9000 rows
  per grid point over 100 points. Here its output array after the region is read as ONE function of the two arrays the
  region finds on entry: `scale G w`, entry (r, q) equal to G (r, q) · w (r, 0).

  Point t stages rows 9000·t … 9000·t + 8999 of both operands and writes back the same rows of the output, so what it
  writes back is block t of `scale G w`; the blocks cover the 900000 rows, the point covering row r being r / 9000.
-/
import proofs.«166920_j52312701665402_1_alg».proof.Proof.FrameP_KernelIdeal
import proofs.«166920_j52312701665402_1_alg».proof.Proof.BlockValue
import Idealize.ShloMosaic.Lib.Pipeline.Value

set_option maxRecDepth 16384

noncomputable section

namespace Cert.KernelIdeal.Region1

open Cert.KernelIdeal Cert.KernelIdeal.Gen Cert.KernelIdeal.GenP Cert.GcnSpec Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- The three windows move together: at point t each is at block row t, block column 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- A product of an entry of G and an entry of w, read where a block's coordinates put them, is `scale G w` at the
    output's index, once the two reads are at that index's row. -/
theorem scale_at (G : S900000x96.Idx → EReal) (w : S900000x1.Idx → EReal) (i0 i2 : S900000x96.Idx) (i1 : S900000x1.Idx)
    (h0 : i0 = i2) (h1 : i1 = ix2 (i2 0) (0 : Fin 1)) : G i0 * w i1 = scale G w i2 := by
  subst h0 h1; rfl

/-- What point t writes back is block t of `scale G w` of the arrays the region finds. -/
theorem flushed_eq (c : Dev nD) (t : Fin cfg1.N) :
    (dat1 (F := Ideal) V c).flushed 2 t
      = ((cfg1.win 2).blk t).view.read (Elt Ideal) (scale (V c main_v34) (V c main_v35)) := by
  show (cfg1.win 2).cut (grid1.coords t) ((dat1 V c).after 2 t) = _
  rw [after1_2]
  unfold out1_2
  rw [View.canon_unit_zero zero_offset]
  simp only [View.ld_unit_zero (S := S9000x96) zero_offset, View.ld_unit_zero (S := S9000x1) zero_offset]
  obtain ⟨e0, e1, e2, e3, e4, e5⟩ := block_index t
  funext j
  obtain ⟨p, q, rfl⟩ : ∃ (p : Fin 9000) (q : Fin 96), j = ix2 p q := ⟨j 0, j 1, eq_ix2 j⟩
  show k1_pay1 (iblk1 V c 0 t) (iblk1 V c 1 t) (ix2 p q)
    = scale (V c main_v34) (V c main_v35) (((cfg1.win 2).blk t).view.emb (ix2 p q))
  refine (pay1_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 9000 + 1 * p.val = win1_2.index t (0 : Fin 2) * 9000 + 1 * p.val; omega
    | ⟨1, _⟩ => show win1_0.index t (1 : Fin 2) * 96 + 1 * q.val = win1_2.index t (1 : Fin 2) * 96 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 9000 + 1 * p.val = win1_2.index t (0 : Fin 2) * 9000 + 1 * p.val; omega
    | ⟨1, _⟩ => show win1_1.index t (1 : Fin 2) * 1 + 1 * 0 = 0; omega
  exact scale_at (V c main_v34) (V c main_v35) _ _ _ h0 h1

/-- An index of the output array is in point t's block iff each coordinate is in the block's range on its axis. -/
theorem mem_blk (t : Fin cfg1.N) (i : S900000x96.Idx) :
    i ∈ ((cfg1.win 2).blk t).view.set ↔ ∀ a : Fin 2, win1_2.index t a * S9000x96.size a ≤ (i a).val
      ∧ (i a).val < win1_2.index t a * S9000x96.size a + S9000x96.size a := by
  show i ∈ ((View.whole main_v36).slice (win1_2.rect t)).set ↔ _
  rw [View.set_slice_whole, Rect.mem_set_unit]
  exact Iff.rfl

/-- Every row of the output is in some point's block: row r in that of point r / 9000. -/
theorem cover (i : S900000x96.Idx) :
    ∃ t : Fin cfg1.N, (cfg1.win 2).flush t = true ∧ i ∈ ((cfg1.win 2).blk t).view.set := by
  have hi0 : (i 0).val < 900000 := (i 0).isLt
  have hi1 : (i 1).val < 96 := (i 1).isLt
  have hN : grid1.N = 100 := N_1
  have hlt : (i 0).val / 9000 < grid1.N := by rw [hN]; omega
  obtain ⟨e0, e1, e2, e3, e4, e5⟩ := block_index ⟨(i 0).val / 9000, hlt⟩
  refine ⟨⟨(i 0).val / 9000, hlt⟩, flush1_2 _, ?_⟩
  rw [mem_blk]
  intro a
  match a with
  | ⟨0, _⟩ =>
    show win1_2.index ⟨(i 0).val / 9000, hlt⟩ (0 : Fin 2) * 9000 ≤ (i 0).val
      ∧ (i 0).val < win1_2.index ⟨(i 0).val / 9000, hlt⟩ (0 : Fin 2) * 9000 + 9000
    rw [e4]
    show (i 0).val / 9000 * 9000 ≤ (i 0).val ∧ (i 0).val < (i 0).val / 9000 * 9000 + 9000
    omega
  | ⟨1, _⟩ =>
    show win1_2.index ⟨(i 0).val / 9000, hlt⟩ (1 : Fin 2) * 96 ≤ (i 1).val
      ∧ (i 1).val < win1_2.index ⟨(i 0).val / 9000, hlt⟩ (1 : Fin 2) * 96 + 96
    rw [e5]
    omega

/-- The output array after the region is `scale G w` of the arrays the region finds on entry. -/
theorem value (c : Dev nD) :
    (dat1 (F := Ideal) V c).arrAt 2 cfg1.N = scale (V c main_v34) (V c main_v35) :=
  (dat1 V c).arrAt_eq_of_cover 2 _ (fun t _ => flushed_eq V c t) cover

end Cert.KernelIdeal.Region1

end
-- ==== Proof.Region2.lean ====
/-
  Region 2 of the program adds a bias row to every row of a 100000 × 96 array and takes the maximum with zero, a
  block of 10000 rows per grid point over 10 points, the bias row staged at every point. Here its output array after
  the region is read as ONE function of the two arrays the region finds on entry: `biasRelu A b`, entry (r, q) equal
  to max (A (r, q) + b (0, q)) 0.

  Point t stages rows 10000·t … 10000·t + 9999 of A and writes back the same rows of the output, so what it writes
  back is block t of `biasRelu A b`; the blocks cover the 100000 rows, the point covering row r being r / 10000.
-/
import proofs.«166920_j52312701665402_1_alg».proof.Proof.FrameP_KernelIdeal
import proofs.«166920_j52312701665402_1_alg».proof.Proof.BlockValue
import Idealize.ShloMosaic.Lib.Pipeline.Value

set_option maxRecDepth 16384

noncomputable section

namespace Cert.KernelIdeal.Region2

open Cert.KernelIdeal Cert.KernelIdeal.Gen Cert.KernelIdeal.GenP Cert.GcnSpec Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- At point t the row windows are at block row t, block column 0; the bias window stays at its one block. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The thresholded sum of an entry of A and an entry of b, read where a block's coordinates put them, is
    `biasRelu A b` at the output's index, once the read of A is at that index and the read of b in its column. -/
theorem biasRelu_at (A : S100000x96.Idx → EReal) (b : S1x96.Idx → EReal) (i0 i2 : S100000x96.Idx) (i1 : S1x96.Idx)
    (h0 : i0 = i2) (h1 : i1 = ix2 (0 : Fin 1) (i2 1)) :
    max (A i0 + b i1) (Ideal.ofBits .f32 0x00000000#32) = biasRelu A b i2 := by
  subst h0 h1; rfl

/-- What point t writes back is block t of `biasRelu A b` of the arrays the region finds. -/
theorem flushed_eq (c : Dev nD) (t : Fin cfg2.N) :
    (dat2 (F := Ideal) V c).flushed 2 t
      = ((cfg2.win 2).blk t).view.read (Elt Ideal)
          (biasRelu (V c main_v39 : S100000x96.Idx → EReal) (V c main_v40 : S1x96.Idx → EReal)) := by
  show (cfg2.win 2).cut (grid2.coords t) ((dat2 V c).after 2 t) = _
  rw [after2_2]
  unfold out2_2
  rw [View.canon_unit_zero zero_offset]
  simp only [View.ld_unit_zero (S := S10000x96) zero_offset, View.ld_unit_zero (S := S1x96) zero_offset]
  obtain ⟨e0, e1, e2, e3, e4, e5⟩ := block_index t
  funext j
  obtain ⟨p, q, rfl⟩ : ∃ (p : Fin 10000) (q : Fin 96), j = ix2 p q := ⟨j 0, j 1, eq_ix2 j⟩
  show k2_pay1 (iblk2 V c 0 t) (iblk2 V c 1 t) (ix2 p q)
    = biasRelu (V c main_v39 : S100000x96.Idx → EReal) (V c main_v40 : S1x96.Idx → EReal) (((cfg2.win 2).blk t).view.emb (ix2 p q))
  refine (pay2_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 96 + 1 * q.val = win2_2.index t (1 : Fin 2) * 96 + 1 * q.val; omega
  have h1 : ((cfg2.win 1).blk t).view.emb (ix2 (0 : Fin 1) q)
      = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 96 + 1 * q.val = win2_2.index t (1 : Fin 2) * 96 + 1 * q.val; omega
  exact biasRelu_at (V c main_v39) (V c main_v40) _ _ _ h0 h1

/-- An index of the output array is in point t's block iff each coordinate is in the block's range on its axis. -/
theorem mem_blk (t : Fin cfg2.N) (i : S100000x96.Idx) :
    i ∈ ((cfg2.win 2).blk t).view.set ↔ ∀ a : Fin 2, win2_2.index t a * S10000x96.size a ≤ (i a).val
      ∧ (i a).val < win2_2.index t a * S10000x96.size a + S10000x96.size a := by
  show i ∈ ((View.whole main_v41).slice (win2_2.rect t)).set ↔ _
  rw [View.set_slice_whole, Rect.mem_set_unit]
  exact Iff.rfl

/-- Every row of the output is in some point's block: row r in that of point r / 10000. -/
theorem cover (i : S100000x96.Idx) :
    ∃ t : Fin cfg2.N, (cfg2.win 2).flush t = true ∧ i ∈ ((cfg2.win 2).blk t).view.set := by
  have hi0 : (i 0).val < 100000 := (i 0).isLt
  have hi1 : (i 1).val < 96 := (i 1).isLt
  have hN : grid2.N = 10 := N_2
  have hlt : (i 0).val / 10000 < grid2.N := by rw [hN]; omega
  obtain ⟨e0, e1, e2, e3, e4, e5⟩ := block_index ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 96 ≤ (i 1).val
      ∧ (i 1).val < win2_2.index ⟨(i 0).val / 10000, hlt⟩ (1 : Fin 2) * 96 + 96
    rw [e5]
    omega

/-- The output array after the region is `biasRelu A b` of the arrays the region finds on entry. -/
theorem value (c : Dev nD) :
    (dat2 (F := Ideal) V c).arrAt 2 cfg2.N
      = biasRelu (V c main_v39 : S100000x96.Idx → EReal) (V c main_v40 : S1x96.Idx → EReal) :=
  (dat2 V c).arrAt_eq_of_cover 2 _ (fun t _ => flushed_eq V c t) cover

end Cert.KernelIdeal.Region2

end
-- ==== Proof.Region3.lean ====
/-
  Region 3 of the program multiplies a 100000 × 96 array by a 96 × 96 weight matrix, a block of 10000 rows per grid
  point over 10 points, the whole weight matrix staged at every point. Here its output array after the region is read
  as ONE function of the two arrays the region finds on entry: `mm X W`, entry (r, q) the sum over c of X (r, c) · W (c, q).

  Point t stages rows 10000·t … 10000·t + 9999 of X and writes back the same rows of the output. Row r of the product
  depends on row r of X only, so what point t writes back is block t of `mm X W`; the blocks cover the 100000 rows,
  the point covering row r being r / 10000.
-/
import proofs.«166920_j52312701665402_1_alg».proof.Proof.FrameP_KernelIdeal
import proofs.«166920_j52312701665402_1_alg».proof.Proof.BlockValue
import Idealize.ShloMosaic.Lib.Pipeline.Value

set_option maxRecDepth 16384

noncomputable section

namespace Cert.KernelIdeal.Region3

open Cert.KernelIdeal Cert.KernelIdeal.Gen Cert.KernelIdeal.GenP Cert.GcnSpec Cert.KernelIdeal.BlockValue
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_offset : (![0, 0] : Fin 2 → Nat) = fun _ => 0 := funext fun a => by fin_cases a <;> rfl

/-- At point t the row windows are at block row t, block column 0; the weight window stays at its one block. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A sum of products of entries of X and W, read where a block's coordinates put them, is `mm X W` at the output's
    index, once the reads of X are in that index's row and the reads of W in its column. -/
theorem mm_at (X : S100000x96.Idx → EReal) (W : S96x96.Idx → EReal) (i2 : S100000x96.Idx)
    (a : Fin 96 → S100000x96.Idx) (b : Fin 96 → S96x96.Idx)
    (h0 : ∀ k, a k = ix2 (i2 0) k) (h1 : ∀ k, b k = ix2 k (i2 1)) :
    ∑ k : Fin 96, X (a k) * W (b k) = mm X W i2 := by
  unfold mm
  exact Finset.sum_congr rfl fun k _ => by rw [h0 k, h1 k] <;> rfl

/-- What point t writes back is block t of `mm X W` of the arrays the region finds. -/
theorem flushed_eq (c : Dev nD) (t : Fin cfg3.N) :
    (dat3 (F := Ideal) V c).flushed 2 t
      = ((cfg3.win 2).blk t).view.read (Elt Ideal)
          (mm (V c main_v41 : S100000x96.Idx → EReal) (V c main_arg4 : S96x96.Idx → EReal)) := by
  show (cfg3.win 2).cut (grid3.coords t) ((dat3 V c).after 2 t) = _
  rw [after3_2]
  unfold out3_2
  rw [View.canon_unit_zero zero_offset]
  simp only [View.ld_unit_zero (S := S10000x96) zero_offset, View.ld_unit_zero (S := S96x96) zero_offset]
  obtain ⟨e0, e1, e2, e3, e4, e5⟩ := block_index t
  funext j
  obtain ⟨p, q, rfl⟩ : ∃ (p : Fin 10000) (q : Fin 96), j = ix2 p q := ⟨j 0, j 1, eq_ix2 j⟩
  show k3_pay1 (iblk3 V c 0 t) (iblk3 V c 1 t) (ix2 p q)
    = mm (V c main_v41 : S100000x96.Idx → EReal) (V c main_arg4 : S96x96.Idx → EReal) (((cfg3.win 2).blk t).view.emb (ix2 p q))
  refine (pay3_apply (iblk3 V c 0 t) (iblk3 V c 1 t) p q).trans ?_
  have h0 : ∀ k : Fin 96, ((cfg3.win 0).blk t).view.emb (ix2 p k)
      = ix2 ((((cfg3.win 2).blk t).view.emb (ix2 p q)) 0) k := by
    intro k
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 96 + 1 * k.val = k.val; omega
  have h1 : ∀ k : Fin 96, ((cfg3.win 1).blk t).view.emb (ix2 k q)
      = ix2 k ((((cfg3.win 2).blk t).view.emb (ix2 p q)) 1) := by
    intro k
    funext a; apply Fin.ext
    match a with
    | ⟨0, _⟩ => show win3_1.index t (0 : Fin 2) * 96 + 1 * k.val = k.val; omega
    | ⟨1, _⟩ => show win3_1.index t (1 : Fin 2) * 96 + 1 * q.val = win3_2.index t (1 : Fin 2) * 96 + 1 * q.val; omega
  exact mm_at (V c main_v41) (V c main_arg4) _ _ _ h0 h1

/-- An index of the output array is in point t's block iff each coordinate is in the block's range on its axis. -/
theorem mem_blk (t : Fin cfg3.N) (i : S100000x96.Idx) :
    i ∈ ((cfg3.win 2).blk t).view.set ↔ ∀ a : Fin 2, win3_2.index t a * S10000x96.size a ≤ (i a).val
      ∧ (i a).val < win3_2.index t a * S10000x96.size a + S10000x96.size a := by
  show i ∈ ((View.whole main_v42).slice (win3_2.rect t)).set ↔ _
  rw [View.set_slice_whole, Rect.mem_set_unit]
  exact Iff.rfl

/-- Every row of the output is in some point's block: row r in that of point r / 10000. -/
theorem cover (i : S100000x96.Idx) :
    ∃ t : Fin cfg3.N, (cfg3.win 2).flush t = true ∧ i ∈ ((cfg3.win 2).blk t).view.set := by
  have hi0 : (i 0).val < 100000 := (i 0).isLt
  have hi1 : (i 1).val < 96 := (i 1).isLt
  have hN : grid3.N = 10 := N_3
  have hlt : (i 0).val / 10000 < grid3.N := by rw [hN]; omega
  obtain ⟨e0, e1, e2, e3, e4, e5⟩ := block_index ⟨(i 0).val / 10000, hlt⟩
  refine ⟨⟨(i 0).val / 10000, hlt⟩, flush3_2 _, ?_⟩
  rw [mem_blk]
  intro a
  match a with
  | ⟨0, _⟩ =>
    show win3_2.index ⟨(i 0).val / 10000, hlt⟩ (0 : Fin 2) * 10000 ≤ (i 0).val
      ∧ (i 0).val < win3_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hlt⟩ (1 : Fin 2) * 96 ≤ (i 1).val
      ∧ (i 1).val < win3_2.index ⟨(i 0).val / 10000, hlt⟩ (1 : Fin 2) * 96 + 96
    rw [e5]
    omega

/-- The output array after the region is `mm X W` of the arrays the region finds on entry. -/
theorem value (c : Dev nD) :
    (dat3 (F := Ideal) V c).arrAt 2 cfg3.N
      = mm (V c main_v41 : S100000x96.Idx → EReal) (V c main_arg4 : S96x96.Idx → EReal) :=
  (dat3 V c).arrAt_eq_of_cover 2 _ (fun t _ => flushed_eq V c t) cover

end Cert.KernelIdeal.Region3

end
-- ==== Proof.Region4.lean ====
/-
  Region 4 of the program scales each row of the gathered message array by that row's weight, a block of 9000 rows
  per grid point over 100 points. Here its output array after the region is read as ONE function of the two arrays the
  region finds on entry: `scale G w`, entry (r, q) equal to G (r, q) · w (r, 0).

  Point t stages rows 9000·t … 9000·t + 8999 of both operands and writes back the same rows of the output, so what it
  writes back is block t of `scale G w`; the blocks cover the 900000 rows, the point covering row r being r / 9000.
-/
import proofs.«166920_j52312701665402_1_alg».proof.Proof.FrameP_KernelIdeal
import proofs.«166920_j52312701665402_1_alg».proof.Proof.BlockValue
import Idealize.ShloMosaic.Lib.Pipeline.Value

set_option maxRecDepth 16384

noncomputable section

namespace Cert.KernelIdeal.Region4

open Cert.KernelIdeal Cert.KernelIdeal.Gen Cert.KernelIdeal.GenP Cert.GcnSpec Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- The three windows move together: at point t each is at block row t, block column 0. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- A product of an entry of G and an entry of w, read where a block's coordinates put them, is `scale G w` at the
    output's index, once the two reads are at that index's row. -/
theorem scale_at (G : S900000x96.Idx → EReal) (w : S900000x1.Idx → EReal) (i0 i2 : S900000x96.Idx) (i1 : S900000x1.Idx)
    (h0 : i0 = i2) (h1 : i1 = ix2 (i2 0) (0 : Fin 1)) : G i0 * w i1 = scale G w i2 := by
  subst h0 h1; rfl

/-- What point t writes back is block t of `scale G w` of the arrays the region finds. -/
theorem flushed_eq (c : Dev nD) (t : Fin cfg4.N) :
    (dat4 (F := Ideal) V c).flushed 2 t
      = ((cfg4.win 2).blk t).view.read (Elt Ideal) (scale (V c main_v49) (V c main_v50)) := by
  show (cfg4.win 2).cut (grid4.coords t) ((dat4 V c).after 2 t) = _
  rw [after4_2]
  unfold out4_2
  rw [View.canon_unit_zero zero_offset]
  simp only [View.ld_unit_zero (S := S9000x96) zero_offset, View.ld_unit_zero (S := S9000x1) zero_offset]
  obtain ⟨e0, e1, e2, e3, e4, e5⟩ := block_index t
  funext j
  obtain ⟨p, q, rfl⟩ : ∃ (p : Fin 9000) (q : Fin 96), j = ix2 p q := ⟨j 0, j 1, eq_ix2 j⟩
  show k4_pay1 (iblk4 V c 0 t) (iblk4 V c 1 t) (ix2 p q)
    = scale (V c main_v49) (V c main_v50) (((cfg4.win 2).blk t).view.emb (ix2 p q))
  refine (pay4_apply (iblk4 V c 0 t) (iblk4 V c 1 t) p q).trans ?_
  have h0 : ((cfg4.win 0).blk t).view.emb (ix2 p q) = ((cfg4.win 2).blk t).view.emb (ix2 p q) := by
    funext a; apply Fin.ext
    match a with
    | ⟨0, _⟩ => show win4_0.index t (0 : Fin 2) * 9000 + 1 * p.val = win4_2.index t (0 : Fin 2) * 9000 + 1 * p.val; omega
    | ⟨1, _⟩ => show win4_0.index t (1 : Fin 2) * 96 + 1 * q.val = win4_2.index t (1 : Fin 2) * 96 + 1 * q.val; omega
  have h1 : ((cfg4.win 1).blk t).view.emb (ix2 p (0 : Fin 1))
      = ix2 ((((cfg4.win 2).blk t).view.emb (ix2 p q)) 0) (0 : Fin 1) := by
    funext a; apply Fin.ext
    match a with
    | ⟨0, _⟩ => show win4_1.index t (0 : Fin 2) * 9000 + 1 * p.val = win4_2.index t (0 : Fin 2) * 9000 + 1 * p.val; omega
    | ⟨1, _⟩ => show win4_1.index t (1 : Fin 2) * 1 + 1 * 0 = 0; omega
  exact scale_at (V c main_v49) (V c main_v50) _ _ _ h0 h1

/-- An index of the output array is in point t's block iff each coordinate is in the block's range on its axis. -/
theorem mem_blk (t : Fin cfg4.N) (i : S900000x96.Idx) :
    i ∈ ((cfg4.win 2).blk t).view.set ↔ ∀ a : Fin 2, win4_2.index t a * S9000x96.size a ≤ (i a).val
      ∧ (i a).val < win4_2.index t a * S9000x96.size a + S9000x96.size a := by
  show i ∈ ((View.whole main_v51).slice (win4_2.rect t)).set ↔ _
  rw [View.set_slice_whole, Rect.mem_set_unit]
  exact Iff.rfl

/-- Every row of the output is in some point's block: row r in that of point r / 9000. -/
theorem cover (i : S900000x96.Idx) :
    ∃ t : Fin cfg4.N, (cfg4.win 2).flush t = true ∧ i ∈ ((cfg4.win 2).blk t).view.set := by
  have hi0 : (i 0).val < 900000 := (i 0).isLt
  have hi1 : (i 1).val < 96 := (i 1).isLt
  have hN : grid4.N = 100 := N_4
  have hlt : (i 0).val / 9000 < grid4.N := by rw [hN]; omega
  obtain ⟨e0, e1, e2, e3, e4, e5⟩ := block_index ⟨(i 0).val / 9000, hlt⟩
  refine ⟨⟨(i 0).val / 9000, hlt⟩, flush4_2 _, ?_⟩
  rw [mem_blk]
  intro a
  match a with
  | ⟨0, _⟩ =>
    show win4_2.index ⟨(i 0).val / 9000, hlt⟩ (0 : Fin 2) * 9000 ≤ (i 0).val
      ∧ (i 0).val < win4_2.index ⟨(i 0).val / 9000, hlt⟩ (0 : Fin 2) * 9000 + 9000
    rw [e4]
    show (i 0).val / 9000 * 9000 ≤ (i 0).val ∧ (i 0).val < (i 0).val / 9000 * 9000 + 9000
    omega
  | ⟨1, _⟩ =>
    show win4_2.index ⟨(i 0).val / 9000, hlt⟩ (1 : Fin 2) * 96 ≤ (i 1).val
      ∧ (i 1).val < win4_2.index ⟨(i 0).val / 9000, hlt⟩ (1 : Fin 2) * 96 + 96
    rw [e5]
    omega

/-- The output array after the region is `scale G w` of the arrays the region finds on entry. -/
theorem value (c : Dev nD) :
    (dat4 (F := Ideal) V c).arrAt 2 cfg4.N = scale (V c main_v49) (V c main_v50) :=
  (dat4 V c).arrAt_eq_of_cover 2 _ (fun t _ => flushed_eq V c t) cover

end Cert.KernelIdeal.Region4

end
-- ==== Proof.Region5.lean ====
/-
  Region 5 of the program adds a bias row to every row of a 100000 × 96 array and takes the maximum with zero, a
  block of 10000 rows per grid point over 10 points, the bias row staged at every point. Here its output array after
  the region is read as ONE function of the two arrays the region finds on entry: `biasRelu A b`, entry (r, q) equal
  to max (A (r, q) + b (0, q)) 0.

  Point t stages rows 10000·t … 10000·t + 9999 of A and writes back the same rows of the output, so what it writes
  back is block t of `biasRelu A b`; the blocks cover the 100000 rows, the point covering row r being r / 10000.
-/
import proofs.«166920_j52312701665402_1_alg».proof.Proof.FrameP_KernelIdeal
import proofs.«166920_j52312701665402_1_alg».proof.Proof.BlockValue
import Idealize.ShloMosaic.Lib.Pipeline.Value

set_option maxRecDepth 16384

noncomputable section

namespace Cert.KernelIdeal.Region5

open Cert.KernelIdeal Cert.KernelIdeal.Gen Cert.KernelIdeal.GenP Cert.GcnSpec Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- At point t the row windows are at block row t, block column 0; the bias window stays at its one block. -/
theorem block_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The thresholded sum of an entry of A and an entry of b, read where a block's coordinates put them, is
    `biasRelu A b` at the output's index, once the read of A is at that index and the read of b in its column. -/
theorem biasRelu_at (A : S100000x96.Idx → EReal) (b : S1x96.Idx → EReal) (i0 i2 : S100000x96.Idx) (i1 : S1x96.Idx)
    (h0 : i0 = i2) (h1 : i1 = ix2 (0 : Fin 1) (i2 1)) :
    max (A i0 + b i1) (Ideal.ofBits .f32 0x00000000#32) = biasRelu A b i2 := by
  subst h0 h1; rfl

/-- What point t writes back is block t of `biasRelu A b` of the arrays the region finds. -/
theorem flushed_eq (c : Dev nD) (t : Fin cfg5.N) :
    (dat5 (F := Ideal) V c).flushed 2 t
      = ((cfg5.win 2).blk t).view.read (Elt Ideal)
          (biasRelu (V c main_v54 : S100000x96.Idx → EReal) (V c main_v55 : S1x96.Idx → EReal)) := by
  show (cfg5.win 2).cut (grid5.coords t) ((dat5 V c).after 2 t) = _
  rw [after5_2]
  unfold out5_2
  rw [View.canon_unit_zero zero_offset]
  simp only [View.ld_unit_zero (S := S10000x96) zero_offset, View.ld_unit_zero (S := S1x96) zero_offset]
  obtain ⟨e0, e1, e2, e3, e4, e5⟩ := block_index t
  funext j
  obtain ⟨p, q, rfl⟩ : ∃ (p : Fin 10000) (q : Fin 96), j = ix2 p q := ⟨j 0, j 1, eq_ix2 j⟩
  show k5_pay1 (iblk5 V c 0 t) (iblk5 V c 1 t) (ix2 p q)
    = biasRelu (V c main_v54 : S100000x96.Idx → EReal) (V c main_v55 : S1x96.Idx → EReal) (((cfg5.win 2).blk t).view.emb (ix2 p q))
  refine (pay5_apply (iblk5 V c 0 t) (iblk5 V c 1 t) p q).trans ?_
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 96 + 1 * q.val = win5_2.index t (1 : Fin 2) * 96 + 1 * q.val; omega
  have h1 : ((cfg5.win 1).blk t).view.emb (ix2 (0 : Fin 1) q)
      = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 96 + 1 * q.val = win5_2.index t (1 : Fin 2) * 96 + 1 * q.val; omega
  exact biasRelu_at (V c main_v54) (V c main_v55) _ _ _ h0 h1

/-- An index of the output array is in point t's block iff each coordinate is in the block's range on its axis. -/
theorem mem_blk (t : Fin cfg5.N) (i : S100000x96.Idx) :
    i ∈ ((cfg5.win 2).blk t).view.set ↔ ∀ a : Fin 2, win5_2.index t a * S10000x96.size a ≤ (i a).val
      ∧ (i a).val < win5_2.index t a * S10000x96.size a + S10000x96.size a := by
  show i ∈ ((View.whole main_v56).slice (win5_2.rect t)).set ↔ _
  rw [View.set_slice_whole, Rect.mem_set_unit]
  exact Iff.rfl

/-- Every row of the output is in some point's block: row r in that of point r / 10000. -/
theorem cover (i : S100000x96.Idx) :
    ∃ t : Fin cfg5.N, (cfg5.win 2).flush t = true ∧ i ∈ ((cfg5.win 2).blk t).view.set := by
  have hi0 : (i 0).val < 100000 := (i 0).isLt
  have hi1 : (i 1).val < 96 := (i 1).isLt
  have hN : grid5.N = 10 := N_5
  have hlt : (i 0).val / 10000 < grid5.N := by rw [hN]; omega
  obtain ⟨e0, e1, e2, e3, e4, e5⟩ := block_index ⟨(i 0).val / 10000, hlt⟩
  refine ⟨⟨(i 0).val / 10000, hlt⟩, flush5_2 _, ?_⟩
  rw [mem_blk]
  intro a
  match a with
  | ⟨0, _⟩ =>
    show win5_2.index ⟨(i 0).val / 10000, hlt⟩ (0 : Fin 2) * 10000 ≤ (i 0).val
      ∧ (i 0).val < win5_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, hlt⟩ (1 : Fin 2) * 96 ≤ (i 1).val
      ∧ (i 1).val < win5_2.index ⟨(i 0).val / 10000, hlt⟩ (1 : Fin 2) * 96 + 96
    rw [e5]
    omega

/-- The output array after the region is `biasRelu A b` of the arrays the region finds on entry. -/
theorem value (c : Dev nD) :
    (dat5 (F := Ideal) V c).arrAt 2 cfg5.N
      = biasRelu (V c main_v54 : S100000x96.Idx → EReal) (V c main_v55 : S1x96.Idx → EReal) :=
  (dat5 V c).arrAt_eq_of_cover 2 _ (fun t _ => flushed_eq V c t) cover

end Cert.KernelIdeal.Region5

end
-- ==== Proof.Bridge.lean ====
/-
  The reference's operations that the kernel computes inside its regions, as the same three array functions, over the
  extended reals; and the two re-layings by which the kernel hands a vector to a region, against the reference's.

  * The reference's matrix product is `mm`: the host's `dot_general` contracts the left operand's columns with the
    right operand's rows, entry by entry the same sum.
  * The reference scales the gathered rows by the edge weights repeated along each row: a column repeated along the
    rows, times an array, is `scale` of the array and the column.
  * The reference adds the bias repeated along every row and takes the maximum with a zero array: `biasRelu`.
  * A vector re-laid as a column by a reshape (the kernel) or by a broadcast to a new unit axis (the reference) is the
    same column; likewise a vector re-laid as a one-row matrix.
-/
import proofs.«166920_j52312701665402_1_alg».proof.Proof.Gen.ReferenceIdeal.Read
import proofs.«166920_j52312701665402_1_alg».proof.Proof.BlockValue
import proofs.«166920_j52312701665402_1_alg».proof.Proof.LibKeepdims
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx Cert.GcnSpec
open Cert.ReferenceIdeal Cert.ReferenceIdeal.Read
open scoped BigOperators

/-! ## The reference's stages as the three array functions -/

/-- The first product of the reference is `mm` of the features and the first weight matrix. -/
theorem ref_v27 (x0 : S100000x96.Idx → EReal) (x2 : S96x96.Idx → EReal) :
    val_main_v27 (F := Ideal) x0 x2 = mm x0 x2 := by
  funext i
  rw [val_main_v27_apply]
  unfold mm
  refine Finset.sum_congr rfl fun k _ => ?_
  have el : lidx_main_v27 i k = ix2 (i 0) k := funext fun a => by match a with | ⟨0, _⟩ => rfl | ⟨1, _⟩ => rfl
  have er : ridx_main_v27 i k = ix2 k (i 1) := funext fun a => by match a with | ⟨0, _⟩ => rfl | ⟨1, _⟩ => rfl
  rw [el, er] <;> rfl

/-- The second product of the reference is `mm` of the first layer's output and the second weight matrix. -/
theorem ref_v45 (x0 : S100000x96.Idx → EReal) (x1 : S2x800000.Idx → BitVec 32) (x2 : S96x96.Idx → EReal)
    (x3 : S96.Idx → EReal) (x4 : S96x96.Idx → EReal) :
    val_main_v45 (F := Ideal) x0 x1 x2 x3 x4 = mm (val_main_v44 (F := Ideal) x0 x1 x2 x3) x4 := by
  funext i
  rw [val_main_v45_apply]
  unfold mm
  refine Finset.sum_congr rfl fun k _ => ?_
  have el : lidx_main_v45 i k = ix2 (i 0) k := funext fun a => by match a with | ⟨0, _⟩ => rfl | ⟨1, _⟩ => rfl
  have er : ridx_main_v45 i k = ix2 k (i 1) := funext fun a => by match a with | ⟨0, _⟩ => rfl | ⟨1, _⟩ => rfl
  rw [el, er] <;> rfl

/-- The first layer's scaled messages are `scale` of the gathered rows and the weight column. -/
theorem ref_v37 (x0 : S100000x96.Idx → EReal) (x1 : S2x800000.Idx → BitVec 32) (x2 : S96x96.Idx → EReal) :
    val_main_v37 (F := Ideal) x0 x1 x2 = scale (val_main_v34 (F := Ideal) x0 x1 x2) (val_main_v35 (F := Ideal) x1) := by
  funext i
  rw [val_main_v37_apply, val_main_v36_apply]
  have e : idx_main_v36 i = ix2 (i 0) (0 : Fin 1) := funext fun a => by match a with | ⟨0, _⟩ => rfl | ⟨1, _⟩ => rfl
  rw [e]
  rfl

/-- The second layer's scaled messages, likewise. -/
theorem ref_v55 (x0 : S100000x96.Idx → EReal) (x1 : S2x800000.Idx → BitVec 32) (x2 : S96x96.Idx → EReal)
    (x3 : S96.Idx → EReal) (x4 : S96x96.Idx → EReal) :
    val_main_v55 (F := Ideal) x0 x1 x2 x3 x4
      = scale (val_main_v52 (F := Ideal) x0 x1 x2 x3 x4) (val_main_v53 (F := Ideal) x1) := by
  funext i
  rw [val_main_v55_apply, val_main_v54_apply]
  have e : idx_main_v54 i = ix2 (i 0) (0 : Fin 1) := funext fun a => by match a with | ⟨0, _⟩ => rfl | ⟨1, _⟩ => rfl
  rw [e]
  rfl

/-- The first layer's output is `biasRelu` of the aggregated messages and the bias row. -/
theorem ref_v44 (x0 : S100000x96.Idx → EReal) (x1 : S2x800000.Idx → BitVec 32) (x2 : S96x96.Idx → EReal)
    (x3 : S96.Idx → EReal) :
    val_main_v44 (F := Ideal) x0 x1 x2 x3
      = biasRelu (val_main_v40 (F := Ideal) x0 x1 x2) (val_main_v41 (F := Ideal) x3) := by
  funext i
  rw [val_main_v44_apply, val_main_v43_apply, val_main_v42_apply, val_main_call0_v0_apply, val_main_call0_cst_apply]
  have e : idx_main_v42 i = ix2 (0 : Fin 1) (i 1) := funext fun a => by match a with | ⟨0, _⟩ => rfl | ⟨1, _⟩ => rfl
  rw [e]
  rfl

/-- The second layer's output, likewise. -/
theorem ref_v62 (x0 : S100000x96.Idx → EReal) (x1 : S2x800000.Idx → BitVec 32) (x2 : S96x96.Idx → EReal)
    (x3 : S96.Idx → EReal) (x4 : S96x96.Idx → EReal) (x5 : S96.Idx → EReal) :
    val_main_v62 (F := Ideal) x0 x1 x2 x3 x4 x5
      = biasRelu (val_main_v58 (F := Ideal) x0 x1 x2 x3 x4) (val_main_v59 (F := Ideal) x5) := by
  funext i
  rw [val_main_v62_apply, val_main_v61_apply, val_main_v60_apply, val_main_call1_v0_apply, val_main_call1_cst_apply]
  have e : idx_main_v60 i = ix2 (0 : Fin 1) (i 1) := funext fun a => by match a with | ⟨0, _⟩ => rfl | ⟨1, _⟩ => rfl
  rw [e]
  rfl

/-! ## A vector as a column, and as a one-row matrix: the kernel's reshape is the reference's broadcast -/

/-- A vector of 900000 entries reshaped to a column is the same column as the vector broadcast to a new unit axis. -/
theorem column_eq (n : S900000.Idx → EReal) (h : S900000.ShapeCasts S900000x1)
    (hb : S900000.BroadcastsInDim S900000x1 (![0] : Fin 1 → Fin S900000x1.rank)) :
    shapeCast S900000x1 n h = broadcastInDim S900000x1 ![0] hb n := by
  funext i
  obtain ⟨e, u, rfl⟩ : ∃ (e : Fin 900000) (u : Fin 1), i = ix2 e u := ⟨i 0, i 1, eq_ix2 i⟩
  rw [Cert.LibKeepdims.shapeCast_a_a1_apply]
  exact (broadcastInDim_apply _ hb n (ix2 e u) (ix1 e) (fun a => match a with
    | ⟨0, _⟩ => by show e.val = if (900000 : Nat) = 1 then 0 else e.val; rw [if_neg (by decide)])).symm

/-- A vector of 96 entries reshaped to a one-row matrix is the same row as the vector broadcast to a new unit axis. -/
theorem row_eq (b : S96.Idx → EReal) (h : S96.ShapeCasts S1x96)
    (hb : S96.BroadcastsInDim S1x96 (![1] : Fin 1 → Fin S1x96.rank)) :
    shapeCast S1x96 b h = broadcastInDim S1x96 ![1] hb b := by
  funext i
  obtain ⟨u, q, rfl⟩ : ∃ (u : Fin 1) (q : Fin 96), i = ix2 u q := ⟨i 0, i 1, eq_ix2 i⟩
  rw [shapeCast_a_1a_apply]
  exact (broadcastInDim_apply _ hb b (ix2 u q) (ix1 q) (fun a => match a with
    | ⟨0, _⟩ => by show q.val = if (96 : Nat) = 1 then 0 else q.val; rw [if_neg (by decide)])).symm

end Cert.Bridge

end
-- ==== Proof.KChain.lean ====
/-
  The idealized kernel's result as a function of its arguments.

  The program alternates stretches of host operations with six regions. Boundary by boundary, the buffers that later
  steps read are identified here with the reference's own stages (the functions `val_main_v…` of the reference's
  arguments that its operations compute one after the other): the host stretches are the same operations in both
  programs, so each buffer they write holds the matching stage as soon as the buffers they read do; each region's
  output array is the array function its body computes block by block (`mm`, `scale`, `biasRelu`), which is the
  stage the reference computes there by a host product, by a product with the repeated weight column, and by the bias
  sum with a maximum. A buffer that a step does not write keeps what it held.
-/
import proofs.«166920_j52312701665402_1_alg».proof.Proof.FrameP_KernelIdeal
import proofs.«166920_j52312701665402_1_alg».proof.Proof.Region0
import proofs.«166920_j52312701665402_1_alg».proof.Proof.Region1
import proofs.«166920_j52312701665402_1_alg».proof.Proof.Region2
import proofs.«166920_j52312701665402_1_alg».proof.Proof.Region3
import proofs.«166920_j52312701665402_1_alg».proof.Proof.Region4
import proofs.«166920_j52312701665402_1_alg».proof.Proof.Region5
import proofs.«166920_j52312701665402_1_alg».proof.Proof.Bridge
import proofs.«166920_j52312701665402_1_alg».proof.Proof.Gen.ReferenceIdeal.Read
import Idealize.ShloMosaic.Lib.StableHlo.Run

set_option maxRecDepth 16384

noncomputable section

namespace Cert.KernelIdeal.Chain

open Cert.KernelIdeal Cert.KernelIdeal.Gen Cert.KernelIdeal.GenP Cert.GcnSpec
open Idealize.ShloMosaic Idealize.ShloMosaic.TcCoe Idealize.SL.Sem Idealize.ShloMosaic.StableHlo
open Cert.ReferenceIdeal.Read (val_main_v3 val_main_v6 val_main_v26 val_main_v27 val_main_v34 val_main_v35 val_main_v37
  val_main_v40 val_main_v41 val_main_v44 val_main_v45 val_main_v52 val_main_v53 val_main_v55 val_main_v58 val_main_v59
  val_main_v62)

variable (m : (ℓ : Loc nD τ sig) → Buf (Elt Ideal) ℓ) (ρ : Dev nD → PrngReg) (c : Dev nD)

/-! ## The argument arrays as launched -/

abbrev a0 : S100000x96.Idx → EReal := m ((c.tc : Thread nD τ).loc main_arg0)
abbrev a1 : (⟨S2x800000, .i32⟩ : BufTy).Contents (Elt Ideal) := m ((c.tc : Thread nD τ).loc main_arg1)
abbrev a2 : S96x96.Idx → EReal := m ((c.tc : Thread nD τ).loc main_arg2)
abbrev a3 : S96.Idx → EReal := m ((c.tc : Thread nD τ).loc main_arg3)
abbrev a4 : S96x96.Idx → EReal := m ((c.tc : Thread nD τ).loc main_arg4)
abbrev a5 : S96.Idx → EReal := m ((c.tc : Thread nD τ).loc main_arg5)

/-! ## After the first host stretch: the edge lists with self loops, and the normalisation weights -/

theorem w1_v3 : W1 m ρ c (Proc.devRef .tc main_v3) = val_main_v3 (F := Ideal) (a1 m c) := by
  show StableHlo.after hostOps0 (W0 m ρ c) (Proc.devRef .tc main_v3) = _
  dsimp only [hostOps0]
  after_results_simp
  rfl
theorem w1_v6 : W1 m ρ c (Proc.devRef .tc main_v6) = val_main_v6 (F := Ideal) (a1 m c) := by
  show StableHlo.after hostOps0 (W0 m ρ c) (Proc.devRef .tc main_v6) = _
  dsimp only [hostOps0]
  after_results_simp
  rfl
theorem w1_v26 : W1 m ρ c (Proc.devRef .tc main_v26) = val_main_v26 (F := Ideal) (a1 m c) := by
  show StableHlo.after hostOps0 (W0 m ρ c) (Proc.devRef .tc main_v26) = _
  dsimp only [hostOps0]
  after_results_simp
  rfl
theorem w1_arg0 : W1 m ρ c (Proc.devRef .tc main_arg0) = (a0 m c) := by
  show StableHlo.after hostOps0 (W0 m ρ c) (Proc.devRef .tc main_arg0) = _
  dsimp only [hostOps0]
  after_results_simp
theorem w1_arg2 : W1 m ρ c (Proc.devRef .tc main_arg2) = (a2 m c) := by
  show StableHlo.after hostOps0 (W0 m ρ c) (Proc.devRef .tc main_arg2) = _
  dsimp only [hostOps0]
  after_results_simp
theorem w1_arg3 : W1 m ρ c (Proc.devRef .tc main_arg3) = (a3 m c) := by
  show StableHlo.after hostOps0 (W0 m ρ c) (Proc.devRef .tc main_arg3) = _
  dsimp only [hostOps0]
  after_results_simp
theorem w1_arg4 : W1 m ρ c (Proc.devRef .tc main_arg4) = (a4 m c) := by
  show StableHlo.after hostOps0 (W0 m ρ c) (Proc.devRef .tc main_arg4) = _
  dsimp only [hostOps0]
  after_results_simp
theorem w1_arg5 : W1 m ρ c (Proc.devRef .tc main_arg5) = (a5 m c) := by
  show StableHlo.after hostOps0 (W0 m ρ c) (Proc.devRef .tc main_arg5) = _
  dsimp only [hostOps0]
  after_results_simp

/-! ## After region 0: the first product -/

theorem w2_v27 : W2 m ρ c (Proc.devRef .tc main_v27) = val_main_v27 (F := Ideal) (a0 m c) (a2 m c) :=
  (W2_arr m ρ c 2).trans ((Region0.value (V1 m ρ) c).trans
    ((congrArg₂ mm (w1_arg0 m ρ c) (w1_arg2 m ρ c)).trans (Cert.Bridge.ref_v27 _ _).symm))
theorem w2_v3 : W2 m ρ c (Proc.devRef .tc main_v3) = val_main_v3 (F := Ideal) (a1 m c) :=
  (W2_of_ne m ρ c main_v3 (by decide)).trans (w1_v3 m ρ c)
theorem w2_v6 : W2 m ρ c (Proc.devRef .tc main_v6) = val_main_v6 (F := Ideal) (a1 m c) :=
  (W2_of_ne m ρ c main_v6 (by decide)).trans (w1_v6 m ρ c)
theorem w2_v26 : W2 m ρ c (Proc.devRef .tc main_v26) = val_main_v26 (F := Ideal) (a1 m c) :=
  (W2_of_ne m ρ c main_v26 (by decide)).trans (w1_v26 m ρ c)
theorem w2_arg3 : W2 m ρ c (Proc.devRef .tc main_arg3) = (a3 m c) :=
  (W2_of_ne m ρ c main_arg3 (by decide)).trans (w1_arg3 m ρ c)
theorem w2_arg4 : W2 m ρ c (Proc.devRef .tc main_arg4) = (a4 m c) :=
  (W2_of_ne m ρ c main_arg4 (by decide)).trans (w1_arg4 m ρ c)
theorem w2_arg5 : W2 m ρ c (Proc.devRef .tc main_arg5) = (a5 m c) :=
  (W2_of_ne m ρ c main_arg5 (by decide)).trans (w1_arg5 m ρ c)

/-! ## After the second host stretch: the gathered rows and the weight column -/

theorem w3_v34 : W3 m ρ c (Proc.devRef .tc main_v34) = val_main_v34 (F := Ideal) (a0 m c) (a1 m c) (a2 m c) := by
  show StableHlo.after hostOps1 (W2 m ρ c) (Proc.devRef .tc main_v34) = _
  dsimp only [hostOps1]
  after_results_simp
  rw [w2_v27 m ρ c, w2_v3 m ρ c]
  rfl
theorem w3_v35 : W3 m ρ c (Proc.devRef .tc main_v35) = val_main_v35 (F := Ideal) (a1 m c) := by
  show StableHlo.after hostOps1 (W2 m ρ c) (Proc.devRef .tc main_v35) = _
  dsimp only [hostOps1]
  after_results_simp
  rw [w2_v26 m ρ c]
  exact Cert.Bridge.column_eq _ _ _
theorem w3_v3 : W3 m ρ c (Proc.devRef .tc main_v3) = val_main_v3 (F := Ideal) (a1 m c) := by
  show StableHlo.after hostOps1 (W2 m ρ c) (Proc.devRef .tc main_v3) = _
  dsimp only [hostOps1]
  after_results_simp
  exact w2_v3 m ρ c
theorem w3_v6 : W3 m ρ c (Proc.devRef .tc main_v6) = val_main_v6 (F := Ideal) (a1 m c) := by
  show StableHlo.after hostOps1 (W2 m ρ c) (Proc.devRef .tc main_v6) = _
  dsimp only [hostOps1]
  after_results_simp
  exact w2_v6 m ρ c
theorem w3_v26 : W3 m ρ c (Proc.devRef .tc main_v26) = val_main_v26 (F := Ideal) (a1 m c) := by
  show StableHlo.after hostOps1 (W2 m ρ c) (Proc.devRef .tc main_v26) = _
  dsimp only [hostOps1]
  after_results_simp
  exact w2_v26 m ρ c
theorem w3_arg3 : W3 m ρ c (Proc.devRef .tc main_arg3) = (a3 m c) := by
  show StableHlo.after hostOps1 (W2 m ρ c) (Proc.devRef .tc main_arg3) = _
  dsimp only [hostOps1]
  after_results_simp
  exact w2_arg3 m ρ c
theorem w3_arg4 : W3 m ρ c (Proc.devRef .tc main_arg4) = (a4 m c) := by
  show StableHlo.after hostOps1 (W2 m ρ c) (Proc.devRef .tc main_arg4) = _
  dsimp only [hostOps1]
  after_results_simp
  exact w2_arg4 m ρ c
theorem w3_arg5 : W3 m ρ c (Proc.devRef .tc main_arg5) = (a5 m c) := by
  show StableHlo.after hostOps1 (W2 m ρ c) (Proc.devRef .tc main_arg5) = _
  dsimp only [hostOps1]
  after_results_simp
  exact w2_arg5 m ρ c

/-! ## After region 1: the scaled messages -/

theorem w4_v36 : W4 m ρ c (Proc.devRef .tc main_v36) = val_main_v37 (F := Ideal) (a0 m c) (a1 m c) (a2 m c) :=
  (W4_arr m ρ c 2).trans ((Region1.value (V3 m ρ) c).trans
    ((congrArg₂ scale (w3_v34 m ρ c) (w3_v35 m ρ c)).trans (Cert.Bridge.ref_v37 _ _ _).symm))
theorem w4_v3 : W4 m ρ c (Proc.devRef .tc main_v3) = val_main_v3 (F := Ideal) (a1 m c) :=
  (W4_of_ne m ρ c main_v3 (by decide)).trans (w3_v3 m ρ c)
theorem w4_v6 : W4 m ρ c (Proc.devRef .tc main_v6) = val_main_v6 (F := Ideal) (a1 m c) :=
  (W4_of_ne m ρ c main_v6 (by decide)).trans (w3_v6 m ρ c)
theorem w4_v26 : W4 m ρ c (Proc.devRef .tc main_v26) = val_main_v26 (F := Ideal) (a1 m c) :=
  (W4_of_ne m ρ c main_v26 (by decide)).trans (w3_v26 m ρ c)
theorem w4_arg3 : W4 m ρ c (Proc.devRef .tc main_arg3) = (a3 m c) :=
  (W4_of_ne m ρ c main_arg3 (by decide)).trans (w3_arg3 m ρ c)
theorem w4_arg4 : W4 m ρ c (Proc.devRef .tc main_arg4) = (a4 m c) :=
  (W4_of_ne m ρ c main_arg4 (by decide)).trans (w3_arg4 m ρ c)
theorem w4_arg5 : W4 m ρ c (Proc.devRef .tc main_arg5) = (a5 m c) :=
  (W4_of_ne m ρ c main_arg5 (by decide)).trans (w3_arg5 m ρ c)

/-! ## After the third host stretch: the aggregated messages and the bias row -/

theorem w5_v39 : W5 m ρ c (Proc.devRef .tc main_v39) = val_main_v40 (F := Ideal) (a0 m c) (a1 m c) (a2 m c) := by
  show StableHlo.after hostOps2 (W4 m ρ c) (Proc.devRef .tc main_v39) = _
  dsimp only [hostOps2]
  after_results_simp
  rw [w4_v6 m ρ c, w4_v36 m ρ c]
  rfl
theorem w5_v40 : W5 m ρ c (Proc.devRef .tc main_v40) = val_main_v41 (F := Ideal) (a3 m c) := by
  show StableHlo.after hostOps2 (W4 m ρ c) (Proc.devRef .tc main_v40) = _
  dsimp only [hostOps2]
  after_results_simp
  rw [w4_arg3 m ρ c]
  exact Cert.Bridge.row_eq _ _ _
theorem w5_v3 : W5 m ρ c (Proc.devRef .tc main_v3) = val_main_v3 (F := Ideal) (a1 m c) := by
  show StableHlo.after hostOps2 (W4 m ρ c) (Proc.devRef .tc main_v3) = _
  dsimp only [hostOps2]
  after_results_simp
  exact w4_v3 m ρ c
theorem w5_v6 : W5 m ρ c (Proc.devRef .tc main_v6) = val_main_v6 (F := Ideal) (a1 m c) := by
  show StableHlo.after hostOps2 (W4 m ρ c) (Proc.devRef .tc main_v6) = _
  dsimp only [hostOps2]
  after_results_simp
  exact w4_v6 m ρ c
theorem w5_v26 : W5 m ρ c (Proc.devRef .tc main_v26) = val_main_v26 (F := Ideal) (a1 m c) := by
  show StableHlo.after hostOps2 (W4 m ρ c) (Proc.devRef .tc main_v26) = _
  dsimp only [hostOps2]
  after_results_simp
  exact w4_v26 m ρ c
theorem w5_arg4 : W5 m ρ c (Proc.devRef .tc main_arg4) = (a4 m c) := by
  show StableHlo.after hostOps2 (W4 m ρ c) (Proc.devRef .tc main_arg4) = _
  dsimp only [hostOps2]
  after_results_simp
  exact w4_arg4 m ρ c
theorem w5_arg5 : W5 m ρ c (Proc.devRef .tc main_arg5) = (a5 m c) := by
  show StableHlo.after hostOps2 (W4 m ρ c) (Proc.devRef .tc main_arg5) = _
  dsimp only [hostOps2]
  after_results_simp
  exact w4_arg5 m ρ c

/-! ## After region 2: the first layer's output -/

theorem w6_v41 : W6 m ρ c (Proc.devRef .tc main_v41) = val_main_v44 (F := Ideal) (a0 m c) (a1 m c) (a2 m c) (a3 m c) :=
  (W6_arr m ρ c 2).trans ((Region2.value (V5 m ρ) c).trans
    ((congrArg₂ biasRelu (w5_v39 m ρ c) (w5_v40 m ρ c)).trans (Cert.Bridge.ref_v44 _ _ _ _).symm))
theorem w6_v3 : W6 m ρ c (Proc.devRef .tc main_v3) = val_main_v3 (F := Ideal) (a1 m c) :=
  (W6_of_ne m ρ c main_v3 (by decide)).trans (w5_v3 m ρ c)
theorem w6_v6 : W6 m ρ c (Proc.devRef .tc main_v6) = val_main_v6 (F := Ideal) (a1 m c) :=
  (W6_of_ne m ρ c main_v6 (by decide)).trans (w5_v6 m ρ c)
theorem w6_v26 : W6 m ρ c (Proc.devRef .tc main_v26) = val_main_v26 (F := Ideal) (a1 m c) :=
  (W6_of_ne m ρ c main_v26 (by decide)).trans (w5_v26 m ρ c)
theorem w6_arg4 : W6 m ρ c (Proc.devRef .tc main_arg4) = (a4 m c) :=
  (W6_of_ne m ρ c main_arg4 (by decide)).trans (w5_arg4 m ρ c)
theorem w6_arg5 : W6 m ρ c (Proc.devRef .tc main_arg5) = (a5 m c) :=
  (W6_of_ne m ρ c main_arg5 (by decide)).trans (w5_arg5 m ρ c)

/-! ## After region 3: the second product -/

theorem w7_v42 : W7 m ρ c (Proc.devRef .tc main_v42) = val_main_v45 (F := Ideal) (a0 m c) (a1 m c) (a2 m c) (a3 m c) (a4 m c) :=
  (W7_arr m ρ c 2).trans ((Region3.value (V6 m ρ) c).trans
    ((congrArg₂ mm (w6_v41 m ρ c) (w6_arg4 m ρ c)).trans (Cert.Bridge.ref_v45 _ _ _ _ _).symm))
theorem w7_v3 : W7 m ρ c (Proc.devRef .tc main_v3) = val_main_v3 (F := Ideal) (a1 m c) :=
  (W7_of_ne m ρ c main_v3 (by decide)).trans (w6_v3 m ρ c)
theorem w7_v6 : W7 m ρ c (Proc.devRef .tc main_v6) = val_main_v6 (F := Ideal) (a1 m c) :=
  (W7_of_ne m ρ c main_v6 (by decide)).trans (w6_v6 m ρ c)
theorem w7_v26 : W7 m ρ c (Proc.devRef .tc main_v26) = val_main_v26 (F := Ideal) (a1 m c) :=
  (W7_of_ne m ρ c main_v26 (by decide)).trans (w6_v26 m ρ c)
theorem w7_arg5 : W7 m ρ c (Proc.devRef .tc main_arg5) = (a5 m c) :=
  (W7_of_ne m ρ c main_arg5 (by decide)).trans (w6_arg5 m ρ c)

/-! ## After the fourth host stretch -/

theorem w8_v49 : W8 m ρ c (Proc.devRef .tc main_v49) = val_main_v52 (F := Ideal) (a0 m c) (a1 m c) (a2 m c) (a3 m c) (a4 m c) := by
  show StableHlo.after hostOps4 (W7 m ρ c) (Proc.devRef .tc main_v49) = _
  dsimp only [hostOps4]
  after_results_simp
  rw [w7_v42 m ρ c, w7_v3 m ρ c]
  rfl
theorem w8_v50 : W8 m ρ c (Proc.devRef .tc main_v50) = val_main_v53 (F := Ideal) (a1 m c) := by
  show StableHlo.after hostOps4 (W7 m ρ c) (Proc.devRef .tc main_v50) = _
  dsimp only [hostOps4]
  after_results_simp
  rw [w7_v26 m ρ c]
  exact Cert.Bridge.column_eq _ _ _
theorem w8_v6 : W8 m ρ c (Proc.devRef .tc main_v6) = val_main_v6 (F := Ideal) (a1 m c) := by
  show StableHlo.after hostOps4 (W7 m ρ c) (Proc.devRef .tc main_v6) = _
  dsimp only [hostOps4]
  after_results_simp
  exact w7_v6 m ρ c
theorem w8_arg5 : W8 m ρ c (Proc.devRef .tc main_arg5) = (a5 m c) := by
  show StableHlo.after hostOps4 (W7 m ρ c) (Proc.devRef .tc main_arg5) = _
  dsimp only [hostOps4]
  after_results_simp
  exact w7_arg5 m ρ c

/-! ## After region 4 -/

theorem w9_v51 : W9 m ρ c (Proc.devRef .tc main_v51) = val_main_v55 (F := Ideal) (a0 m c) (a1 m c) (a2 m c) (a3 m c) (a4 m c) :=
  (W9_arr m ρ c 2).trans ((Region4.value (V8 m ρ) c).trans
    ((congrArg₂ scale (w8_v49 m ρ c) (w8_v50 m ρ c)).trans (Cert.Bridge.ref_v55 _ _ _ _ _).symm))
theorem w9_v6 : W9 m ρ c (Proc.devRef .tc main_v6) = val_main_v6 (F := Ideal) (a1 m c) :=
  (W9_of_ne m ρ c main_v6 (by decide)).trans (w8_v6 m ρ c)
theorem w9_arg5 : W9 m ρ c (Proc.devRef .tc main_arg5) = (a5 m c) :=
  (W9_of_ne m ρ c main_arg5 (by decide)).trans (w8_arg5 m ρ c)

/-! ## After the fifth host stretch -/

theorem w10_v54 : W10 m ρ c (Proc.devRef .tc main_v54) = val_main_v58 (F := Ideal) (a0 m c) (a1 m c) (a2 m c) (a3 m c) (a4 m c) := by
  show StableHlo.after hostOps5 (W9 m ρ c) (Proc.devRef .tc main_v54) = _
  dsimp only [hostOps5]
  after_results_simp
  rw [w9_v6 m ρ c, w9_v51 m ρ c]
  rfl
theorem w10_v55 : W10 m ρ c (Proc.devRef .tc main_v55) = val_main_v59 (F := Ideal) (a5 m c) := by
  show StableHlo.after hostOps5 (W9 m ρ c) (Proc.devRef .tc main_v55) = _
  dsimp only [hostOps5]
  after_results_simp
  rw [w9_arg5 m ρ c]
  exact Cert.Bridge.row_eq _ _ _

/-! ## After region 5: the result -/

/-- The result array after the run is the reference's last stage of the argument arrays. -/
theorem result_eq : W11 m ρ c (Proc.devRef .tc main_v56) = val_main_v62 (F := Ideal) (a0 m c) (a1 m c) (a2 m c) (a3 m c) (a4 m c) (a5 m c) :=
  (W11_arr m ρ c 2).trans ((Region5.value (V10 m ρ) c).trans
    ((congrArg₂ biasRelu (w10_v54 m ρ c) (w10_v55 m ρ c)).trans (Cert.Bridge.ref_v62 _ _ _ _ _ _).symm))

end Cert.KernelIdeal.Chain

end
-- ==== Proof.lean ====
/-
  The certificate of a two-layer graph convolution: a program of six pipelined regions (two dense products, two
  row scalings, two bias-and-threshold steps) with the gathers and scatter-adds left to host operations, against a plain
  reference that computes every step on the host.

  Over the extended reals the two programs compute the same array, operation by operation: rounding the product's
  operands to a narrower format is the identity, a product accumulated block of rows by block of rows is the whole
  product, a column of weights repeated inside a block is the column repeated over the whole array, and the host
  operations between the regions (self loops, degrees, the symmetric normalisation, the gathers and the scatter-adds) are
  the same operations in both programs, applied to equal arrays. No law of arithmetic is needed, so the precondition that
  the float inputs are finite is never opened.

  * The frames of the two kernel programs are the frame certificates of FrameP_Kernel.lean and FrameP_KernelIdeal.lean;
    the reference's frame is its generated run with the result dropped.
  * The idealization rewrote nothing: `preserves` is `True`.
  * `algebraic`: the kernel's run with its result named (KRun.lean), that result as the reference's last stage of the
    arguments (KChain.lean, over Region0–5.lean, BlockValue.lean and Bridge.lean), and the reference's generated run.
-/
import proofs.«166920_j52312701665402_1_alg».proof.Defs
import proofs.«166920_j52312701665402_1_alg».proof.Proof.Gen.Kernel
import proofs.«166920_j52312701665402_1_alg».proof.Proof.Gen.Kernel.Skeleton
import proofs.«166920_j52312701665402_1_alg».proof.Proof.LaunchP_Kernel
import proofs.«166920_j52312701665402_1_alg».proof.Proof.Gen.Kernel.Points
import proofs.«166920_j52312701665402_1_alg».proof.Proof.FrameP_Kernel
import proofs.«166920_j52312701665402_1_alg».proof.Proof.Gen.KernelIdeal
import proofs.«166920_j52312701665402_1_alg».proof.Proof.Gen.KernelIdeal.Skeleton
import proofs.«166920_j52312701665402_1_alg».proof.Proof.LaunchP_KernelIdeal
import proofs.«166920_j52312701665402_1_alg».proof.Proof.Gen.KernelIdeal.Points
import proofs.«166920_j52312701665402_1_alg».proof.Proof.FrameP_KernelIdeal
import proofs.«166920_j52312701665402_1_alg».proof.Proof.Gen.ReferenceIdeal
import proofs.«166920_j52312701665402_1_alg».proof.Proof.Gen.ReferenceIdeal.Run
import proofs.«166920_j52312701665402_1_alg».proof.Proof.Gen.ReferenceIdeal.Read
import proofs.«166920_j52312701665402_1_alg».proof.Proof.Gen.Pre_finite_inputs
import proofs.«166920_j52312701665402_1_alg».proof.Proof.KRun
import proofs.«166920_j52312701665402_1_alg».proof.Proof.KChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's last stage of the argument arrays, which agree. -/
theorem algebraic : Cert.algebraic_KernelIdeal_ReferenceIdeal := by
  intro m ρ m' ρ' _ hagree
  refine ⟨fun c => Cert.KernelIdeal.GenP.W11 m ρ c (Proc.devRef .tc Cert.KernelIdeal.main_v56),
    Cert.KernelIdeal.RunNamed.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v62_eq, h0, h1, h2, h3, h4, h5]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
